-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, read whole.

  @main of the kernel is four segments: the host operations up to the first layer's call, the first layer (one
  grid of 20 row blocks), the host operations between the two calls, and the second layer.  The generated frame
  module names the TensorCore's buffer contents at every boundary between segments (a fold from the launch memory:
  `W1` … `W4`) and proves the frame claim from the run of the segments by keeping, of the last boundary's contents
  `W4`, only the argument arrays.  Here the same run is read at EVERY unscoped buffer: after the run each one holds
  what `W4` says.  The value of the result array is then a statement about the fold alone.
-/
import proofs.«174795_j40029095199405_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, and in the final memory every
    unscoped buffer of every TensorCore holds the last boundary's contents `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result array and the eight argument arrays read: the result holds the last boundary's
    contents at its buffer, every argument what it was launched with. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_W4 m ρ)

end Cert.KernelIdeal.Whole

end
-- ==== Proof.KernelLayer.lean ====
/-
  One block of a layer, entry by entry.

  Both kernel bodies compute, on a block of 5000 rows, the dense part of a SAGE layer: with `A` the block of
  aggregated neighbour features, `H` the block of the nodes' own features, `Wl`, `Wr` the two 128 × 128 weight
  matrices and `b` the bias row,

      out(p, q) = (Σₖ A(p, k) · Wl(k, q) + b(0, q)) + Σₖ H(p, k) · Wr(k, q),

  the first layer followed by a maximum with zero.  Over the extended reals the narrowing to bf16 before each
  product is the identity and a matrix product into a zero accumulator is the plain sum, so the payload read at
  row `p`, column `q` is exactly this expression.
-/
import proofs.«174795_j40029095199405_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Layer

open Cert.KernelIdeal Cert.KernelIdeal.Gen
open Idealize.ShloMosaic Idealize.ShloMosaic.ValueIdx

/-- The block product's record: rows × contraction times contraction × columns. -/
abbrev DD := dot_S5000x128_S128x128_S5000x128_1_0_0_1_n_n

theorem lhs_row (i : S5000x128.Idx) (r : DD.contr.Idx) : (DD.lhsIdx i r 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_col (i : S5000x128.Idx) (r : DD.contr.Idx) : (DD.lhsIdx i r 1).val = (r ⟨0, by decide⟩).val :=
  DD.lhsIdx_val_of_single rfl i r
theorem rhs_row (i : S5000x128.Idx) (r : DD.contr.Idx) : (DD.rhsIdx i r 0).val = (r ⟨0, by decide⟩).val :=
  DD.rhsIdx_val_of_single rfl i r
theorem rhs_col (i : S5000x128.Idx) (r : DD.contr.Idx) : (DD.rhsIdx i r 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- A block product into the zero accumulator, read at row `p` and column `q`: the sum over the 128 contracted
    positions of the left operand's row `p` against the right operand's column `q`. -/
theorem product_apply {φ₁ φ₂ : FTy} (X : FVec Ideal S5000x128 φ₁) (W : FVec Ideal S128x128 φ₂) (p : Fin 5000) (q : Fin 128) :
    FloatOps.matmul DD none X W (constant S5000x128 .f32 0x00000000#32) (ix2 p q)
      = ∑ k : Fin 128, X (ix2 p k) * W (ix2 k q) := by
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 128 rfl rfl).symm k) = ix2 k q := funext fun a => Fin.ext (by
    match a with
    | ⟨0, _⟩ => exact (rhs_row _ _).trans hk
    | ⟨1, _⟩ => exact rhs_col _ _)
  rw [el, er]

/-- The dense part of a layer on one block, entry `(p, q)`. -/
def dense (A H : S5000x128.Idx → EReal) (Wl Wr : S128x128.Idx → EReal) (b : S1x128.Idx → EReal) (p : Fin 5000) (q : Fin 128) : EReal :=
  ((∑ k : Fin 128, A (ix2 p k) * Wl (ix2 k q)) + b (ix2 (0 : Fin 1) q)) + ∑ k : Fin 128, H (ix2 p k) * Wr (ix2 k q)

/-- The first layer's payload (with its maximum against zero) at entry `(p, q)`. -/
theorem first_payload_apply (A H : Vec Ideal S5000x128 .f32) (Wl Wr : Vec Ideal S128x128 .f32) (b : Vec Ideal S1x128 .f32)
    (p : Fin 5000) (q : Fin 128) :
    k0_pay1 (F := Ideal) A H Wl Wr b (ix2 p q) = max (dense A H Wl Wr b p q) 0 := by
  unfold k0_pay1 dense
  show max ((FloatOps.matmul (F := Ideal) DD none (truncf .bf16 (shapeCast S5000x128 A shapeCasts_S5000x128_S5000x128) bitsLt_bf16_f32) (truncf .bf16 Wl bitsLt_bf16_f32) (constant S5000x128 .f32 0x00000000#32) (ix2 p q)
        + broadcastTo S5000x128 (shapeCast S1x128 b shapeCasts_S1x128_S1x128) broadcasts_S1x128_S5000x128 (ix2 p q))
      + FloatOps.matmul (F := Ideal) DD none (truncf .bf16 H bitsLt_bf16_f32) (truncf .bf16 Wr bitsLt_bf16_f32) (constant S5000x128 .f32 0x00000000#32) (ix2 p q))
      (Ideal.ofBits .f32 0x00000000#32) = _
  rw [product_apply, product_apply, broadcastTo_1b_ab_apply, shapeCast_self, shapeCast_self, Ideal.ofBits_zero_f32]
  rfl

/-- The second layer's payload at entry `(p, q)`. -/
theorem second_payload_apply (A H : Vec Ideal S5000x128 .f32) (Wl Wr : Vec Ideal S128x128 .f32) (b : Vec Ideal S1x128 .f32)
    (p : Fin 5000) (q : Fin 128) :
    k1_pay1 (F := Ideal) A H Wl Wr b (ix2 p q) = dense A H Wl Wr b p q := by
  unfold k1_pay1 dense
  show (FloatOps.matmul (F := Ideal) DD none (truncf .bf16 (shapeCast S5000x128 A shapeCasts_S5000x128_S5000x128) bitsLt_bf16_f32) (truncf .bf16 Wl bitsLt_bf16_f32) (constant S5000x128 .f32 0x00000000#32) (ix2 p q)
        + broadcastTo S5000x128 (shapeCast S1x128 b shapeCasts_S1x128_S1x128) broadcasts_S1x128_S5000x128 (ix2 p q))
      + FloatOps.matmul (F := Ideal) DD none (truncf .bf16 (shapeCast S5000x128 H shapeCasts_S5000x128_S5000x128) bitsLt_bf16_f32) (truncf .bf16 Wr bitsLt_bf16_f32) (constant S5000x128 .f32 0x00000000#32) (ix2 p q) = _
  rw [product_apply, product_apply, broadcastTo_1b_ab_apply, shapeCast_self, shapeCast_self, shapeCast_self]
  rfl

/-- The dense part of a layer over all 100000 nodes, at node `r` and feature `q`. -/
def denseAll (A H : S100000x128.Idx → EReal) (Wl Wr : S128x128.Idx → EReal) (b : S1x128.Idx → EReal) (r : Fin 100000) (q : Fin 128) : EReal :=
  ((∑ k : Fin 128, A (ix2 r k) * Wl (ix2 k q)) + b (ix2 (0 : Fin 1) q)) + ∑ k : Fin 128, H (ix2 r k) * Wr (ix2 k q)

/-- A layer without activation, as one function of whole arrays. -/
def layerPlain (A H : S100000x128.Idx → EReal) (Wl Wr : S128x128.Idx → EReal) (b : S1x128.Idx → EReal) : S100000x128.Idx → EReal :=
  fun i => denseAll A H Wl Wr b ⟨(i 0).val, (i 0).isLt⟩ ⟨(i 1).val, (i 1).isLt⟩

/-- A layer followed by the maximum with zero, as one function of whole arrays. -/
def layerRelu (A H : S100000x128.Idx → EReal) (Wl Wr : S128x128.Idx → EReal) (b : S1x128.Idx → EReal) : S100000x128.Idx → EReal :=
  fun i => max (denseAll A H Wl Wr b ⟨(i 0).val, (i 0).isLt⟩ ⟨(i 1).val, (i 1).isLt⟩) 0

end Cert.KernelIdeal.Layer

end
-- ==== Proof.KernelHost.lean ====
/-
  The host side of the kernel's program, as functions of the arguments.

  Around its two calls the kernel's @main does the irregular part of a SAGE layer on the host: from the edge list
  it takes the source and the target node of every edge, counts each node's incoming edges, and for a feature
  array `h` gathers the source rows, adds each gathered row into its target node's row and scales node `r`'s sum by
  1 / max(deg r, 1).  These are the same operations before the first call (on the input features) and between the
  calls (on the first layer's result); they are named here once, over arbitrary source / target / scale arrays, so
  that both stretches of host operations are instances of ONE function and the gather and the scatter are never
  opened.
-/
import proofs.«174795_j40029095199405_1_alg».proof.KernelIdeal
import proofs.«174795_j40029095199405_1_alg».proof.Proof.Gen.KernelIdeal
import proofs.«174795_j40029095199405_1_alg».proof.Proof.KernelLayer

noncomputable section

namespace Cert.KernelIdeal.HostSide

open Cert.KernelIdeal Cert.KernelIdeal.Gen Cert.KernelIdeal.Layer
open Idealize.ShloMosaic

/-- The source node of every edge: row 0 of the edge list. -/
def srcOf (e : IVec S2x1600000 32) : IVec S1600000 32 :=
  shapeCast _ (extractStridedSlice S1x1600000 ![0, 0] e slices_S2x1600000_S1x1600000_0_0) shapeCasts_S1x1600000_S1600000

/-- The target node of every edge: row 1 of the edge list. -/
def dstOf (e : IVec S2x1600000 32) : IVec S1600000 32 :=
  shapeCast _ (extractStridedSlice S1x1600000 ![1, 0] e slices_S2x1600000_S1x1600000_1_0) shapeCasts_S1x1600000_S1600000

/-- Each node's number of incoming edges, at least one: ones added at the edges' targets, then the maximum with 1. -/
def degOf (d : IVec S1600000 32) : FVec Ideal S100000 .f32 :=
  maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- The kernel's scale column: 1 / max(deg, 1), one entry per node. -/
def invDegOf (d : IVec S1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32)) (degOf d))

/-- The neighbour sum: the rows of `h` gathered at the edges' sources (a negative source index wrapped
    around by the node count) and added into the rows of the edges' targets. -/
def neighbourSum (s d : IVec S1600000 32) (h : FVec Ideal S100000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The kernel's mean aggregation: the neighbour sum times the scale column spread over the features. -/
def scaledSum (s d : IVec S1600000 32) (inv : FVec Ideal S100000x1 .f32)
    (h : FVec Ideal S100000x128 .f32) : FVec Ideal S100000x128 .f32 :=
  mulf (F := Ideal) (neighbourSum s d h) (broadcastInDim S100000x128 ![0, 1] bcast_S100000x1_S100000x128_0_1 inv)

/-- A bias vector as the one-row matrix the calls stage. -/
def biasRow (b : FVec Ideal S128 .f32) : FVec Ideal S1x128 .f32 :=
  shapeCast _ b shapeCasts_S128_S1x128

/-- The first layer's result as a function of the arguments. -/
def hiddenLayer (x : FVec Ideal S100000x128 .f32) (e : IVec S2x1600000 32)
    (wl : FVec Ideal S128x128 .f32) (b : FVec Ideal S128 .f32)
    (wr : FVec Ideal S128x128 .f32) : FVec Ideal S100000x128 .f32 :=
  layerRelu (scaledSum (srcOf e) (dstOf e) (invDegOf (dstOf e)) x) x wl wr (biasRow b)

/-- The kernel's result as a function of the arguments. -/
def result (x : FVec Ideal S100000x128 .f32) (e : IVec S2x1600000 32)
    (wl1 : FVec Ideal S128x128 .f32) (b1 : FVec Ideal S128 .f32)
    (wr1 wl2 : FVec Ideal S128x128 .f32) (b2 : FVec Ideal S128 .f32)
    (wr2 : FVec Ideal S128x128 .f32) : FVec Ideal S100000x128 .f32 :=
  layerPlain (scaledSum (srcOf e) (dstOf e) (invDegOf (dstOf e)) (hiddenLayer x e wl1 b1 wr1)) (hiddenLayer x e wl1 b1 wr1) wl2 wr2 (biasRow b2)

end Cert.KernelIdeal.HostSide

end
-- ==== Proof.FirstCall.lean ====
/-
  The first layer's call: the result array after it.

  The call runs over a grid of 20 points; point `t` stages rows 5000·t … 5000·t + 4999 of the aggregated
  features and of the node features, the two weight matrices and the bias row whole, and writes back the same rows
  of the result.  What a point writes back is therefore the block of ONE function of the whole arrays as the call
  finds them — the layer, row by row — and the twenty blocks tile the result array, so after the call the result
  array IS that function.  Everything is stated for arbitrary contents at the call's entry.
-/
import proofs.«174795_j40029095199405_1_alg».proof.Proof.Gen.KernelIdeal.Frame
import proofs.«174795_j40029095199405_1_alg».proof.Proof.KernelLayer

set_option maxRecDepth 16384

noncomputable section

namespace Cert.KernelIdeal.FirstCall

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the two row-blocked inputs move with the output along the rows, the
    weights and the bias stay at block zero, no window moves along the features, and the output's row block stays
    below 20. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every one of the 20 row blocks is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- The node that row `p` of point `t`'s block is. -/
def rowAt (t : Fin cfg0.N) (p : Fin 5000) : Fin 100000 :=
  ⟨win0_5.index t (0 : Fin 2) * 5000 + p.val, by
    have h := (index_facts t).2.2.2.2.2.2.2.2.2.2.2
    have hp := p.isLt
    omega⟩

/-! ## Where a block's entries sit in the whole arrays -/

theorem emb_out (t : Fin cfg0.N) (p : Fin 5000) (q : Fin 128) :
    ((cfg0.win 5).blk t).view.emb (ix2 p q) = ix2 (rowAt t p) q := by
  obtain ⟨e0, e1, e2, e3, e4, e5, e6, e7, e8, e9, e10, e11⟩ := index_facts t
  funext a; apply Fin.ext
  match a with
  | ⟨0, _⟩ => show win0_5.index t (0 : Fin 2) * 5000 + 1 * p.val = win0_5.index t (0 : Fin 2) * 5000 + p.val; omega
  | ⟨1, _⟩ => show win0_5.index t (1 : Fin 2) * 128 + 1 * q.val = q.val; omega

theorem emb_agg (t : Fin cfg0.N) (p : Fin 5000) (k : Fin 128) :
    ((cfg0.win 0).blk t).view.emb (ix2 p k) = ix2 (rowAt t p) k := by
  obtain ⟨e0, e1, e2, e3, e4, e5, e6, e7, e8, e9, e10, e11⟩ := index_facts t
  funext a; apply Fin.ext
  match a with
  | ⟨0, _⟩ => show win0_0.index t (0 : Fin 2) * 5000 + 1 * p.val = win0_5.index t (0 : Fin 2) * 5000 + p.val; omega
  | ⟨1, _⟩ => show win0_0.index t (1 : Fin 2) * 128 + 1 * k.val = k.val; omega

theorem emb_own (t : Fin cfg0.N) (p : Fin 5000) (k : Fin 128) :
    ((cfg0.win 1).blk t).view.emb (ix2 p k) = ix2 (rowAt t p) k := by
  obtain ⟨e0, e1, e2, e3, e4, e5, e6, e7, e8, e9, e10, e11⟩ := index_facts t
  funext a; apply Fin.ext
  match a with
  | ⟨0, _⟩ => show win0_1.index t (0 : Fin 2) * 5000 + 1 * p.val = win0_5.index t (0 : Fin 2) * 5000 + p.val; omega
  | ⟨1, _⟩ => show win0_1.index t (1 : Fin 2) * 128 + 1 * k.val = k.val; omega

theorem emb_wl (t : Fin cfg0.N) (k q : Fin 128) :
    ((cfg0.win 2).blk t).view.emb (ix2 k q) = ix2 k q := by
  obtain ⟨e0, e1, e2, e3, e4, e5, e6, e7, e8, e9, e10, e11⟩ := index_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb_bias (t : Fin cfg0.N) (q : Fin 128) :
    ((cfg0.win 3).blk t).view.emb (ix2 (0 : Fin 1) q) = ix2 (0 : Fin 1) q := by
  obtain ⟨e0, e1, e2, e3, e4, e5, e6, e7, e8, e9, e10, e11⟩ := index_facts t
  funext a; apply Fin.ext
  match a with
  | ⟨0, _⟩ => show win0_3.index t (0 : Fin 2) * 1 + 1 * 0 = 0; omega
  | ⟨1, _⟩ => show win0_3.index t (1 : Fin 2) * 128 + 1 * q.val = q.val; omega

theorem emb_wr (t : Fin cfg0.N) (k q : Fin 128) :
    ((cfg0.win 4).blk t).view.emb (ix2 k q) = ix2 k q := by
  obtain ⟨e0, e1, e2, e3, e4, e5, e6, e7, e8, e9, e10, e11⟩ := index_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-! ## Each staged block read at an entry -/

theorem agg_read (c : Dev nD) (t : Fin cfg0.N) (p : Fin 5000) (k : Fin 128) :
    iblk0 V c 0 t (ix2 p k) = V c main_v24 (ix2 (rowAt t p) k) := by
  show V c main_v24 (((cfg0.win 0).blk t).view.emb (ix2 p k)) = _
  rw [emb_agg]

theorem own_read (c : Dev nD) (t : Fin cfg0.N) (p : Fin 5000) (k : Fin 128) :
    iblk0 V c 1 t (ix2 p k) = V c main_arg0 (ix2 (rowAt t p) k) := by
  show V c main_arg0 (((cfg0.win 1).blk t).view.emb (ix2 p k)) = _
  rw [emb_own]

theorem wl_read (c : Dev nD) (t : Fin cfg0.N) (k q : Fin 128) :
    iblk0 V c 2 t (ix2 k q) = V c main_arg2 (ix2 k q) := by
  show V c main_arg2 (((cfg0.win 2).blk t).view.emb (ix2 k q)) = _
  rw [emb_wl]

theorem bias_read (c : Dev nD) (t : Fin cfg0.N) (q : Fin 128) :
    iblk0 V c 3 t (ix2 (0 : Fin 1) q) = V c main_v25 (ix2 (0 : Fin 1) q) := by
  show V c main_v25 (((cfg0.win 3).blk t).view.emb (ix2 (0 : Fin 1) q)) = _
  rw [emb_bias]

theorem wr_read (c : Dev nD) (t : Fin cfg0.N) (k q : Fin 128) :
    iblk0 V c 4 t (ix2 k q) = V c main_arg4 (ix2 k q) := by
  show V c main_arg4 (((cfg0.win 4).blk t).view.emb (ix2 k q)) = _
  rw [emb_wr]

/-- The block's dense part at row `p`, column `q` is the whole arrays' at node `rowAt t p`. -/
theorem dense_block (c : Dev nD) (t : Fin cfg0.N) (p : Fin 5000) (q : Fin 128) :
    dense (iblk0 V c 0 t) (iblk0 V c 1 t) (iblk0 V c 2 t) (iblk0 V c 4 t) (iblk0 V c 3 t) p q
      = denseAll (V c main_v24) (V c main_arg0) (V c main_arg2) (V c main_arg4) (V c main_v25) (rowAt t p) q := by
  unfold dense denseAll
  simp only [agg_read V c t, own_read V c t, wl_read V c t, bias_read V c t, wr_read V c t]

/-! ## What a point writes back, and the array after the call -/

/-- Point `t` writes back block `t` of the layer of the whole arrays as the call finds them. -/
theorem flushed_eq (c : Dev nD) (t : Fin cfg0.N) :
    (dat0 V c).flushed 5 t = ((cfg0.win 5).blk t).view.read (Elt Ideal)
      (layerRelu (V c main_v24) (V c main_arg0) (V c main_arg2) (V c main_arg4) (V c main_v25)) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x128) zero_off, View.ld_unit_zero (S := S1x128) zero_off]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = layerRelu (V c main_v24) (V c main_arg0) (V c main_arg2) (V c main_arg4) (V c main_v25) (((cfg0.win 5).blk t).view.emb (ix2 p q))
  rw [emb_out]
  refine (first_payload_apply (iblk0 V c 0 t) (iblk0 V c 1 t) (iblk0 V c 2 t) (iblk0 V c 4 t) (iblk0 V c 3 t) p q).trans ?_
  rw [dense_block V c t p q]
  rfl

/-- An index of the result array is in point `t`'s block iff each coordinate is in the block's range. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty blocks tile the result array: node `r` is in the block of point `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the call is the layer of the whole arrays the call found. -/
theorem array_eq (c : Dev nD) :
    (dat0 V c).arrAt 5 cfg0.N = layerRelu (V c main_v24) (V c main_arg0) (V c main_arg2) (V c main_arg4) (V c main_v25) :=
  (dat0 V c).arrAt_eq_of_cover 5 _ (fun t _ => flushed_eq V c t) covered

end Cert.KernelIdeal.FirstCall

end
-- ==== Proof.SecondCall.lean ====
/-
  The second layer's call: the result array after it.

  The call runs over a grid of 20 points; point `t` stages rows 5000·t … 5000·t + 4999 of the aggregated
  features and of the node features, the two weight matrices and the bias row whole, and writes back the same rows
  of the result.  What a point writes back is therefore the block of ONE function of the whole arrays as the call
  finds them — the layer, row by row — and the twenty blocks tile the result array, so after the call the result
  array IS that function.  Everything is stated for arbitrary contents at the call's entry.
-/
import proofs.«174795_j40029095199405_1_alg».proof.Proof.Gen.KernelIdeal.Frame
import proofs.«174795_j40029095199405_1_alg».proof.Proof.KernelLayer

set_option maxRecDepth 16384

noncomputable section

namespace Cert.KernelIdeal.SecondCall

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the two row-blocked inputs move with the output along the rows, the
    weights and the bias stay at block zero, no window moves along the features, and the output's row block stays
    below 20. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every one of the 20 row blocks is some point's. -/
theorem index_onto : ∀ q0 : Fin 20, ∃ t : Fin cfg1.N, win1_5.index t = ![q0.val, 0] :=
  (by decide +kernel : ∀ q0 : Fin 20, ∃ t : Fin grid1.N, win1_5.index t = ![q0.val, 0])

/-- The node that row `p` of point `t`'s block is. -/
def rowAt (t : Fin cfg1.N) (p : Fin 5000) : Fin 100000 :=
  ⟨win1_5.index t (0 : Fin 2) * 5000 + p.val, by
    have h := (index_facts t).2.2.2.2.2.2.2.2.2.2.2
    have hp := p.isLt
    omega⟩

/-! ## Where a block's entries sit in the whole arrays -/

theorem emb_out (t : Fin cfg1.N) (p : Fin 5000) (q : Fin 128) :
    ((cfg1.win 5).blk t).view.emb (ix2 p q) = ix2 (rowAt t p) q := by
  obtain ⟨e0, e1, e2, e3, e4, e5, e6, e7, e8, e9, e10, e11⟩ := index_facts t
  funext a; apply Fin.ext
  match a with
  | ⟨0, _⟩ => show win1_5.index t (0 : Fin 2) * 5000 + 1 * p.val = win1_5.index t (0 : Fin 2) * 5000 + p.val; omega
  | ⟨1, _⟩ => show win1_5.index t (1 : Fin 2) * 128 + 1 * q.val = q.val; omega

theorem emb_agg (t : Fin cfg1.N) (p : Fin 5000) (k : Fin 128) :
    ((cfg1.win 0).blk t).view.emb (ix2 p k) = ix2 (rowAt t p) k := by
  obtain ⟨e0, e1, e2, e3, e4, e5, e6, e7, e8, e9, e10, e11⟩ := index_facts t
  funext a; apply Fin.ext
  match a with
  | ⟨0, _⟩ => show win1_0.index t (0 : Fin 2) * 5000 + 1 * p.val = win1_5.index t (0 : Fin 2) * 5000 + p.val; omega
  | ⟨1, _⟩ => show win1_0.index t (1 : Fin 2) * 128 + 1 * k.val = k.val; omega

theorem emb_own (t : Fin cfg1.N) (p : Fin 5000) (k : Fin 128) :
    ((cfg1.win 1).blk t).view.emb (ix2 p k) = ix2 (rowAt t p) k := by
  obtain ⟨e0, e1, e2, e3, e4, e5, e6, e7, e8, e9, e10, e11⟩ := index_facts t
  funext a; apply Fin.ext
  match a with
  | ⟨0, _⟩ => show win1_1.index t (0 : Fin 2) * 5000 + 1 * p.val = win1_5.index t (0 : Fin 2) * 5000 + p.val; omega
  | ⟨1, _⟩ => show win1_1.index t (1 : Fin 2) * 128 + 1 * k.val = k.val; omega

theorem emb_wl (t : Fin cfg1.N) (k q : Fin 128) :
    ((cfg1.win 2).blk t).view.emb (ix2 k q) = ix2 k q := by
  obtain ⟨e0, e1, e2, e3, e4, e5, e6, e7, e8, e9, e10, e11⟩ := index_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb_bias (t : Fin cfg1.N) (q : Fin 128) :
    ((cfg1.win 3).blk t).view.emb (ix2 (0 : Fin 1) q) = ix2 (0 : Fin 1) q := by
  obtain ⟨e0, e1, e2, e3, e4, e5, e6, e7, e8, e9, e10, e11⟩ := index_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb_wr (t : Fin cfg1.N) (k q : Fin 128) :
    ((cfg1.win 4).blk t).view.emb (ix2 k q) = ix2 k q := by
  obtain ⟨e0, e1, e2, e3, e4, e5, e6, e7, e8, e9, e10, e11⟩ := index_facts t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-! ## Each staged block read at an entry -/

theorem agg_read (c : Dev nD) (t : Fin cfg1.N) (p : Fin 5000) (k : Fin 128) :
    iblk1 V c 0 t (ix2 p k) = V c main_v38 (ix2 (rowAt t p) k) := by
  show V c main_v38 (((cfg1.win 0).blk t).view.emb (ix2 p k)) = _
  rw [emb_agg]

theorem own_read (c : Dev nD) (t : Fin cfg1.N) (p : Fin 5000) (k : Fin 128) :
    iblk1 V c 1 t (ix2 p k) = V c main_v26 (ix2 (rowAt t p) k) := by
  show V c main_v26 (((cfg1.win 1).blk t).view.emb (ix2 p k)) = _
  rw [emb_own]

theorem wl_read (c : Dev nD) (t : Fin cfg1.N) (k q : Fin 128) :
    iblk1 V c 2 t (ix2 k q) = V c main_arg5 (ix2 k q) := by
  show V c main_arg5 (((cfg1.win 2).blk t).view.emb (ix2 k q)) = _
  rw [emb_wl]

theorem bias_read (c : Dev nD) (t : Fin cfg1.N) (q : Fin 128) :
    iblk1 V c 3 t (ix2 (0 : Fin 1) q) = V c main_v39 (ix2 (0 : Fin 1) q) := by
  show V c main_v39 (((cfg1.win 3).blk t).view.emb (ix2 (0 : Fin 1) q)) = _
  rw [emb_bias]

theorem wr_read (c : Dev nD) (t : Fin cfg1.N) (k q : Fin 128) :
    iblk1 V c 4 t (ix2 k q) = V c main_arg7 (ix2 k q) := by
  show V c main_arg7 (((cfg1.win 4).blk t).view.emb (ix2 k q)) = _
  rw [emb_wr]

/-- The block's dense part at row `p`, column `q` is the whole arrays' at node `rowAt t p`. -/
theorem dense_block (c : Dev nD) (t : Fin cfg1.N) (p : Fin 5000) (q : Fin 128) :
    dense (iblk1 V c 0 t) (iblk1 V c 1 t) (iblk1 V c 2 t) (iblk1 V c 4 t) (iblk1 V c 3 t) p q
      = denseAll (V c main_v38) (V c main_v26) (V c main_arg5) (V c main_arg7) (V c main_v39) (rowAt t p) q := by
  unfold dense denseAll
  simp only [agg_read V c t, own_read V c t, wl_read V c t, bias_read V c t, wr_read V c t]

/-! ## What a point writes back, and the array after the call -/

/-- Point `t` writes back block `t` of the layer of the whole arrays as the call finds them. -/
theorem flushed_eq (c : Dev nD) (t : Fin cfg1.N) :
    (dat1 V c).flushed 5 t = ((cfg1.win 5).blk t).view.read (Elt Ideal)
      (layerPlain (V c main_v38) (V c main_v26) (V c main_arg5) (V c main_arg7) (V c main_v39)) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S128x128) zero_off, View.ld_unit_zero (S := S1x128) zero_off]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = layerPlain (V c main_v38) (V c main_v26) (V c main_arg5) (V c main_arg7) (V c main_v39) (((cfg1.win 5).blk t).view.emb (ix2 p q))
  rw [emb_out]
  refine (second_payload_apply (iblk1 V c 0 t) (iblk1 V c 1 t) (iblk1 V c 2 t) (iblk1 V c 4 t) (iblk1 V c 3 t) p q).trans ?_
  rw [dense_block V c t p q]
  rfl

/-- An index of the result array is in point `t`'s block iff each coordinate is in the block's range. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- The twenty blocks tile the result array: node `r` is in the block of point `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the call is the layer of the whole arrays the call found. -/
theorem array_eq (c : Dev nD) :
    (dat1 V c).arrAt 5 cfg1.N = layerPlain (V c main_v38) (V c main_v26) (V c main_arg5) (V c main_arg7) (V c main_v39) :=
  (dat1 V c).arrAt_eq_of_cover 5 _ (fun t _ => flushed_eq V c t) covered

end Cert.KernelIdeal.SecondCall

end
-- ==== Proof.KernelFold.lean ====
/-
  The kernel's result array as a function of the arguments.

  The contents of the TensorCore's buffers at the four boundaries of @main form a fold from the launch memory:
  the first stretch of host operations, the first call, the second stretch, the second call.  Read through that
  fold, the first call finds the scaled neighbour sum of the input features, the input features, the first
  layer's weights and bias, and leaves the first layer's result; the second stretch recomputes the scaled
  neighbour sum on that result (with the source, target and scale arrays the first stretch left); the second call
  leaves the second layer on them.  So the result buffer at the last boundary is `HostSide.result` of the eight
  arguments.
-/
import proofs.«174795_j40029095199405_1_alg».proof.Proof.Gen.KernelIdeal.Frame
import proofs.«174795_j40029095199405_1_alg».proof.Proof.KernelHost
import proofs.«174795_j40029095199405_1_alg».proof.Proof.FirstCall
import proofs.«174795_j40029095199405_1_alg».proof.Proof.SecondCall

set_option maxRecDepth 16384

noncomputable section

namespace Cert.KernelIdeal.Fold

open Cert.KernelIdeal Cert.KernelIdeal.Gen Cert.KernelIdeal.Layer Cert.KernelIdeal.HostSide
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first call's entry -/

set_option maxHeartbeats 4000000 in
theorem entry_agg (c : Dev nD) :
    W1 (F := Ideal) m ρ c (Proc.devRef .tc main_v24)
      = scaledSum (srcOf (m ((c : Thread nD τ).loc main_arg1))) (dstOf (m ((c : Thread nD τ).loc main_arg1))) (invDegOf (dstOf (m ((c : Thread nD τ).loc main_arg1)))) (m ((c : Thread nD τ).loc main_arg0)) := by
  show StableHlo.after hostOps0 (W0 m ρ c) (Proc.devRef .tc main_v24) = _
  after_results_simp
  rfl

set_option maxHeartbeats 4000000 in
theorem entry_src (c : Dev nD) : W1 (F := Ideal) m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
theorem entry_dst (c : Dev nD) : W1 (F := Ideal) m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
theorem entry_inv (c : Dev nD) : W1 (F := Ideal) m ρ c (Proc.devRef .tc main_v12) = invDegOf (dstOf (m ((c : Thread nD τ).loc main_arg1))) := by
  show StableHlo.after hostOps0 (W0 m ρ c) (Proc.devRef .tc main_v12) = _
  after_results_simp
  rfl

set_option maxHeartbeats 4000000 in
theorem entry_bias (c : Dev nD) : W1 (F := Ideal) m ρ c (Proc.devRef .tc main_v25) = biasRow (m ((c : Thread nD τ).loc main_arg3)) := by
  show StableHlo.after hostOps0 (W0 m ρ c) (Proc.devRef .tc main_v25) = _
  after_results_simp
  rfl

/-- The first stretch writes no argument. -/
theorem entry_keeps (c : Dev nD) :
    W1 (F := Ideal) m ρ c (Proc.devRef .tc main_arg0) = (m ((c : Thread nD τ).loc main_arg0))
    ∧ W1 (F := Ideal) m ρ c (Proc.devRef .tc main_arg2) = (m ((c : Thread nD τ).loc main_arg2))
    ∧ W1 (F := Ideal) m ρ c (Proc.devRef .tc main_arg4) = (m ((c : Thread nD τ).loc main_arg4))
    ∧ W1 (F := Ideal) m ρ c (Proc.devRef .tc main_arg6) = (m ((c : Thread nD τ).loc main_arg6)) := by
  refine ⟨?_, ?_, ?_, ?_⟩
  · show StableHlo.after hostOps0 (W0 m ρ c) (Proc.devRef .tc main_arg0) = _
    after_results_simp <;> rfl
  · show StableHlo.after hostOps0 (W0 m ρ c) (Proc.devRef .tc main_arg2) = _
    after_results_simp <;> rfl
  · show StableHlo.after hostOps0 (W0 m ρ c) (Proc.devRef .tc main_arg4) = _
    after_results_simp <;> rfl
  · show StableHlo.after hostOps0 (W0 m ρ c) (Proc.devRef .tc main_arg6) = _
    after_results_simp <;> rfl

/-! ## After the first call -/

/-- The first call leaves the first layer's result in its output array. -/
theorem hidden_at (c : Dev nD) :
    W2 (F := Ideal) m ρ c (Proc.devRef .tc main_v26) = (hiddenLayer (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [Cert.KernelIdeal.FirstCall.array_eq (V1 m ρ) c]
  obtain ⟨k0, k2, k4, -⟩ := entry_keeps m ρ c
  unfold hiddenLayer
  show layerRelu (W1 (F := Ideal) m ρ c (Proc.devRef .tc main_v24)) (W1 (F := Ideal) m ρ c (Proc.devRef .tc main_arg0))
      (W1 (F := Ideal) m ρ c (Proc.devRef .tc main_arg2)) (W1 (F := Ideal) m ρ c (Proc.devRef .tc main_arg4))
      (W1 (F := Ideal) m ρ c (Proc.devRef .tc main_v25)) = _
  rw [entry_agg, entry_bias, k0, k2, k4]

/-- The first call writes none of the source, target and scale arrays, nor the second bias. -/
theorem mid_src (c : Dev nD) : W2 (F := Ideal) m ρ c (Proc.devRef .tc main_v1) = srcOf (m ((c : Thread nD τ).loc main_arg1)) :=
  (W2_of_ne m ρ c main_v1 (by decide)).trans (entry_src m ρ c)
theorem mid_dst (c : Dev nD) : W2 (F := Ideal) m ρ c (Proc.devRef .tc main_v3) = dstOf (m ((c : Thread nD τ).loc main_arg1)) :=
  (W2_of_ne m ρ c main_v3 (by decide)).trans (entry_dst m ρ c)
theorem mid_inv (c : Dev nD) : W2 (F := Ideal) m ρ c (Proc.devRef .tc main_v12) = invDegOf (dstOf (m ((c : Thread nD τ).loc main_arg1))) :=
  (W2_of_ne m ρ c main_v12 (by decide)).trans (entry_inv m ρ c)
theorem mid_bias (c : Dev nD) : W2 (F := Ideal) m ρ c (Proc.devRef .tc main_arg6) = (m ((c : Thread nD τ).loc main_arg6)) :=
  (W2_of_ne m ρ c main_arg6 (by decide)).trans (entry_keeps m ρ c).2.2.2

/-! ## At the second call's entry -/

set_option maxHeartbeats 4000000 in
theorem second_agg (c : Dev nD) :
    W3 (F := Ideal) m ρ c (Proc.devRef .tc main_v38)
      = scaledSum (srcOf (m ((c : Thread nD τ).loc main_arg1))) (dstOf (m ((c : Thread nD τ).loc main_arg1))) (invDegOf (dstOf (m ((c : Thread nD τ).loc main_arg1)))) (hiddenLayer (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v38) = _
  after_results_simp
  rw [mid_src, mid_dst, mid_inv, hidden_at]
  rfl

set_option maxHeartbeats 4000000 in
theorem second_own (c : Dev nD) :
    W3 (F := Ideal) m ρ c (Proc.devRef .tc main_v26) = (hiddenLayer (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v26) = _
  after_results_simp
  exact hidden_at m ρ c

set_option maxHeartbeats 4000000 in
theorem second_bias (c : Dev nD) : W3 (F := Ideal) m ρ c (Proc.devRef .tc main_v39) = biasRow (m ((c : Thread nD τ).loc main_arg6)) := by
  show StableHlo.after hostOps1 (W2 m ρ c) (Proc.devRef .tc main_v39) = _
  after_results_simp
  rw [mid_bias]
  rfl

/-- The second call's two weight arrays are arguments: it stages them and never writes them back, so what it
    finds there is what the run ends with, the launch contents. -/
theorem second_wl (c : Dev nD) : W3 (F := Ideal) m ρ c (Proc.devRef .tc main_arg5) = (m ((c : Thread nD τ).loc main_arg5)) :=
  ((W4_arr m ρ c 2).trans (((dat1 (V3 m ρ) c).arrAt_in 2 rfl _).trans (A_eq1 (V3 m ρ) c 2))).symm.trans (W4_main_arg5 m ρ c)
theorem second_wr (c : Dev nD) : W3 (F := Ideal) m ρ c (Proc.devRef .tc main_arg7) = (m ((c : Thread nD τ).loc main_arg7)) :=
  ((W4_arr m ρ c 4).trans (((dat1 (V3 m ρ) c).arrAt_in 4 rfl _).trans (A_eq1 (V3 m ρ) c 4))).symm.trans (W4_main_arg7 m ρ c)

/-! ## After the second call -/

/-- THE RESULT BUFFER at the last boundary is the kernel's function of the eight arguments. -/
theorem result_at (c : Dev nD) :
    W4 (F := Ideal) m ρ c (Proc.devRef .tc main_v40)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Cert.KernelIdeal.SecondCall.array_eq (V3 m ρ) c]
  unfold result
  show layerPlain (W3 (F := Ideal) m ρ c (Proc.devRef .tc main_v38)) (W3 (F := Ideal) m ρ c (Proc.devRef .tc main_v26))
      (W3 (F := Ideal) m ρ c (Proc.devRef .tc main_arg5)) (W3 (F := Ideal) m ρ c (Proc.devRef .tc main_arg7))
      (W3 (F := Ideal) m ρ c (Proc.devRef .tc main_v39)) = _
  rw [second_agg, second_own, second_wl, second_wr, second_bias]

end Cert.KernelIdeal.Fold

end
-- ==== Proof.MeanLaw.lean ====
/-
  The one place the two programs differ: how the neighbour sum is averaged.

  The kernel multiplies node `r`'s neighbour sum by the precomputed reciprocal 1 / max(deg r, 1); the reference
  divides the sum by max(deg r, 1).  Over the extended reals a quotient `a / y` with `y ≠ 0` is `a · y⁻¹`, so
  `a · (1 / y) = a · (1 · y⁻¹) = a · y⁻¹ = a / y` for every extended real `a`, infinite ones included; and
  `y = max(deg r, 1) ≥ 1` is never zero, whatever the count is.  No finiteness of the inputs is needed.

  The gather of source rows and the scatter-add into target rows are the same operations on both sides: they stay
  opaque.
-/
import proofs.«174795_j40029095199405_1_alg».proof.Proof.Gen.ReferenceIdeal.Read
import proofs.«174795_j40029095199405_1_alg».proof.Proof.KernelHost
import Idealize.ShloMosaic.Lib.Pipeline.Value
import Idealize.ShloMosaic.Lib.ValueIdx

noncomputable section

namespace Cert.Bridge

open Idealize.ShloMosaic Idealize.ShloMosaic.ValueIdx
open Cert.KernelIdeal.HostSide

/-- The float word of 1.0 denotes the real number one. -/
theorem one_word : Ideal.ofBits .f32 0x3F800000#32 = 1 := by
  simp [Ideal.ofBits, Ideal.ieee, -EReal.coe_mul]
  norm_num

/-- A per-node column, made a one-column matrix and spread over the 128 features, read at an entry: the node's
    value. -/
theorem spread_apply {α : Type} (Z : Cert.KernelIdeal.S100000.Idx → α) (i : Cert.KernelIdeal.S100000x128.Idx) :
    broadcastInDim Cert.KernelIdeal.S100000x128 ![0, 1] Cert.KernelIdeal.Facts₀.bcast_S100000x1_S100000x128_0_1
        (broadcastInDim Cert.KernelIdeal.S100000x1 ![0] Cert.KernelIdeal.Facts₀.bcast_S100000_S100000x1_0 Z) i
      = Z (ix1 ⟨(i 0).val, (i 0).isLt⟩) := by
  rw [broadcastInDim_apply _ _ _ i (ix2 (⟨(i 0).val, (i 0).isLt⟩ : Fin 100000) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ _ Z _ (ix1 (⟨(i 0).val, (i 0).isLt⟩ : Fin 100000)) (fun a => match a with
    | ⟨0, _⟩ => by show (i 0).val = if (100000 : Nat) = 1 then 0 else (i 0).val; rw [if_neg (by decide)])

/-- The vector of ones the host makes (the word of 1.0 spread over the nodes), read at a node. -/
theorem ones_apply (r : Cert.KernelIdeal.S100000.Idx) :
    broadcastInDim Cert.KernelIdeal.S100000 ![] Cert.KernelIdeal.Facts₀.bcast_S_S100000
      (constant (F := Ideal) Cert.KernelIdeal.S_ .f32 0x3F800000#32) r = 1 := by
  rw [broadcastInDim_apply _ _ _ r ix0 (fun a => a.elim0), constant_apply, one_word]

/-- Multiplying by the reciprocal of `max d 1` is dividing by it, for every extended real numerator. -/
theorem scale_law_one (a d : EReal) : a * Ideal.div 1 (max d 1) = Ideal.div a (max d 1) := by
  have h : max d 1 ≠ 0 := ne_of_gt (lt_of_lt_of_le zero_lt_one (le_max_right _ _))
  unfold Ideal.div
  rw [if_neg h, if_neg h, one_mul]

/-- The law on whole arrays, for ANY sum array `S`, count vector `X` and vector `u` of ones: scaling node `r`'s row of
    `S` by `u r / max (X r) (u r)` is dividing it by `max (X r) (u r)`. -/
theorem mean_generic (S : FVec Ideal Cert.KernelIdeal.S100000x128 .f32) (X u : FVec Ideal Cert.KernelIdeal.S100000 .f32)
    (hu : ∀ r, u r = 1) :
    mulf (F := Ideal) S
        (broadcastInDim Cert.KernelIdeal.S100000x128 ![0, 1] Cert.KernelIdeal.Facts₀.bcast_S100000x1_S100000x128_0_1
          (broadcastInDim Cert.KernelIdeal.S100000x1 ![0] Cert.KernelIdeal.Facts₀.bcast_S100000_S100000x1_0
            (Host.divf (F := Ideal) u (maximumf (F := Ideal) X u))))
      = Host.divf (F := Ideal) S
        (broadcastInDim Cert.KernelIdeal.S100000x128 ![0, 1] Cert.KernelIdeal.Facts₀.bcast_S100000x1_S100000x128_0_1
          (broadcastInDim Cert.KernelIdeal.S100000x1 ![0] Cert.KernelIdeal.Facts₀.bcast_S100000_S100000x1_0
            (maximumf (F := Ideal) X u))) := by
  funext i
  rw [mulf_apply]
  show S i * _ = Ideal.div (S i) _
  rw [spread_apply, spread_apply]
  show S i * Ideal.div (u _) (max (X _) (u _)) = Ideal.div (S i) (max (X _) (u _))
  rw [hu]
  exact scale_law_one _ _

/-- The reference's neighbour sum of a feature array `h` is the kernel's. -/
theorem sum_eq (e : IVec Cert.KernelIdeal.S2x1600000 32) (h : FVec Ideal Cert.KernelIdeal.S100000x128 .f32) :
    Host.scatterAdd (F := Ideal) Cert.ReferenceIdeal.scatter_S100000x128_S1600000x1_S1600000x128_1_0_0_1
        (Cert.ReferenceIdeal.Read.val_main_v11 (F := Ideal)) (Cert.ReferenceIdeal.Read.val_main_v12 (F := Ideal) e)
        (Host.gather Cert.ReferenceIdeal.gather_S100000x128_S1600000x1_S1600000x128_1_0_n_n_0_1_1128 h (Cert.ReferenceIdeal.Read.val_main_v9 (F := Ideal) e))
      = neighbourSum (srcOf e) (dstOf e) h := rfl

/-- The reference's divisor array is `max(deg, 1)` as a column spread over the features. -/
theorem divisor_eq (e : IVec Cert.KernelIdeal.S2x1600000 32) :
    Cert.ReferenceIdeal.Read.val_main_v21 (F := Ideal) e
      = broadcastInDim Cert.KernelIdeal.S100000x128 ![0, 1] Cert.KernelIdeal.Facts₀.bcast_S100000x1_S100000x128_0_1
          (broadcastInDim Cert.KernelIdeal.S100000x1 ![0] Cert.KernelIdeal.Facts₀.bcast_S100000_S100000x1_0 (degOf (dstOf e))) := rfl

/-- THE MEAN AGGREGATION: the kernel's scaled neighbour sum of any feature array is the reference's quotient. -/
theorem mean_law (e : IVec Cert.KernelIdeal.S2x1600000 32) (h : FVec Ideal Cert.KernelIdeal.S100000x128 .f32) :
    scaledSum (srcOf e) (dstOf e) (invDegOf (dstOf e)) h
      = Host.divf (F := Ideal)
          (Host.scatterAdd (F := Ideal) Cert.ReferenceIdeal.scatter_S100000x128_S1600000x1_S1600000x128_1_0_0_1
            (Cert.ReferenceIdeal.Read.val_main_v11 (F := Ideal)) (Cert.ReferenceIdeal.Read.val_main_v12 (F := Ideal) e)
            (Host.gather Cert.ReferenceIdeal.gather_S100000x128_S1600000x1_S1600000x128_1_0_n_n_0_1_1128 h (Cert.ReferenceIdeal.Read.val_main_v9 (F := Ideal) e)))
          (Cert.ReferenceIdeal.Read.val_main_v21 (F := Ideal) e) := by
  rw [sum_eq, divisor_eq]
  unfold scaledSum invDegOf degOf
  exact mean_generic _ _ _ ones_apply

end Cert.Bridge

end
-- ==== Proof.DenseLaw.lean ====
/-
  The dense part of a layer, and the two programs' results.

  With the aggregated features `A` the reference computes `A · Wl + b + H · Wr` with two host matrix products, the
  bias broadcast over the nodes, and (first layer) a maximum with a zero array.  Read at node `r`, feature `q`
  each product is the sum over the 128 contracted positions, which is the kernel's layer function entry by entry:
  the same sums in the same grouping, so no law of arithmetic is used here.  With the mean-aggregation law the
  first layers agree, hence the second layers' inputs, hence the results.
-/
import proofs.«174795_j40029095199405_1_alg».proof.Proof.Gen.ReferenceIdeal.Read
import proofs.«174795_j40029095199405_1_alg».proof.Proof.KernelHost
import proofs.«174795_j40029095199405_1_alg».proof.Proof.KernelLayer
import proofs.«174795_j40029095199405_1_alg».proof.Proof.MeanLaw
import Idealize.ShloMosaic.Lib.ValueLayout

noncomputable section

namespace Cert.Bridge

open Idealize.ShloMosaic Idealize.ShloMosaic.ValueIdx
open Cert.KernelIdeal.HostSide Cert.KernelIdeal.Layer

/-- The kernel's dense part at the node and feature of an index `i`, in the index maps the reference's stages are
    read with. -/
theorem dense_ref (A H : FVec Ideal Cert.KernelIdeal.S100000x128 .f32) (Wl Wr : FVec Ideal Cert.KernelIdeal.S128x128 .f32) (b : FVec Ideal Cert.KernelIdeal.S128 .f32)
    (i : Cert.KernelIdeal.S100000x128.Idx) :
    denseAll A H Wl Wr (biasRow b) ⟨(i 0).val, (i 0).isLt⟩ ⟨(i 1).val, (i 1).isLt⟩
      = ((∑ k : Fin 128, A (Cert.ReferenceIdeal.Read.lidx_main_v23 i k) * Wl (Cert.ReferenceIdeal.Read.ridx_main_v23 i k)) + b (Cert.ReferenceIdeal.Read.idx_main_v24 (Cert.ReferenceIdeal.Read.idx_main_v25 i)))
        + ∑ k : Fin 128, H (Cert.ReferenceIdeal.Read.lidx_main_v27 i k) * Wr (Cert.ReferenceIdeal.Read.ridx_main_v27 i k) := by
  have e1 : ∀ k : Fin 128, Cert.ReferenceIdeal.Read.lidx_main_v23 i k = ix2 (⟨(i 0).val, (i 0).isLt⟩ : Fin 100000) k := fun k =>
    funext fun a => by match a with | ⟨0, _⟩ => rfl | ⟨1, _⟩ => rfl
  have e2 : ∀ k : Fin 128, Cert.ReferenceIdeal.Read.ridx_main_v23 i k = ix2 k (⟨(i 1).val, (i 1).isLt⟩ : Fin 128) := fun k =>
    funext fun a => by match a with | ⟨0, _⟩ => rfl | ⟨1, _⟩ => rfl
  have e3 : ∀ k : Fin 128, Cert.ReferenceIdeal.Read.lidx_main_v27 i k = ix2 (⟨(i 0).val, (i 0).isLt⟩ : Fin 100000) k := fun k =>
    funext fun a => by match a with | ⟨0, _⟩ => rfl | ⟨1, _⟩ => rfl
  have e4 : ∀ k : Fin 128, Cert.ReferenceIdeal.Read.ridx_main_v27 i k = ix2 k (⟨(i 1).val, (i 1).isLt⟩ : Fin 128) := fun k =>
    funext fun a => by match a with | ⟨0, _⟩ => rfl | ⟨1, _⟩ => rfl
  have e5 : Cert.ReferenceIdeal.Read.idx_main_v24 (Cert.ReferenceIdeal.Read.idx_main_v25 i) = ix1 (⟨(i 1).val, (i 1).isLt⟩ : Fin 128) :=
    funext fun a => by match a with | ⟨0, _⟩ => rfl
  unfold denseAll biasRow
  simp only [e1, e2, e3, e4, e5]
  rw [shapeCast_a_1a_apply]

/-- The first layer: the kernel's function of the arguments is the reference's stage after its activation. -/
theorem hidden_eq (x : FVec Ideal Cert.KernelIdeal.S100000x128 .f32) (e : IVec Cert.KernelIdeal.S2x1600000 32) (wl : FVec Ideal Cert.KernelIdeal.S128x128 .f32)
    (b : FVec Ideal Cert.KernelIdeal.S128 .f32) (wr : FVec Ideal Cert.KernelIdeal.S128x128 .f32) :
    hiddenLayer x e wl b wr = Cert.ReferenceIdeal.Read.val_main_v29 (F := Ideal) x e wl b wr := by
  funext i
  rw [Cert.ReferenceIdeal.Read.val_main_v29_apply, Cert.ReferenceIdeal.Read.val_main_v28_apply, Cert.ReferenceIdeal.Read.val_main_v26_apply, Cert.ReferenceIdeal.Read.val_main_v23_apply,
    Cert.ReferenceIdeal.Read.val_main_v25_apply, Cert.ReferenceIdeal.Read.val_main_v24_apply, Cert.ReferenceIdeal.Read.val_main_v27_apply, Cert.ReferenceIdeal.Read.val_main_call0_v0_apply,
    Cert.ReferenceIdeal.Read.val_main_call0_cst_apply]
  unfold hiddenLayer layerRelu
  rw [dense_ref, mean_law]
  show max _ 0 = max _ (Ideal.ofBits .f32 0x00000000#32)
  rw [Ideal.ofBits_zero_f32]
  rfl

/-- The reference's second aggregation is the quotient form of the mean law at the first layer's result. -/
theorem second_mean (x : FVec Ideal Cert.KernelIdeal.S100000x128 .f32) (e : IVec Cert.KernelIdeal.S2x1600000 32) (wl : FVec Ideal Cert.KernelIdeal.S128x128 .f32)
    (b : FVec Ideal Cert.KernelIdeal.S128 .f32) (wr : FVec Ideal Cert.KernelIdeal.S128x128 .f32) :
    Cert.ReferenceIdeal.Read.val_main_v48 (F := Ideal) x e wl b wr
      = Host.divf (F := Ideal) (φ := .f32)
          (Host.scatterAdd (F := Ideal) (φ := .f32) Cert.ReferenceIdeal.scatter_S100000x128_S1600000x1_S1600000x128_1_0_0_1
            (Cert.ReferenceIdeal.Read.val_main_v11 (F := Ideal)) (Cert.ReferenceIdeal.Read.val_main_v12 (F := Ideal) e)
            (Host.gather Cert.ReferenceIdeal.gather_S100000x128_S1600000x1_S1600000x128_1_0_n_n_0_1_1128
              (Cert.ReferenceIdeal.Read.val_main_v29 (F := Ideal) x e wl b wr : FVec Ideal Cert.KernelIdeal.S100000x128 .f32) (Cert.ReferenceIdeal.Read.val_main_v9 (F := Ideal) e)))
          (Cert.ReferenceIdeal.Read.val_main_v21 (F := Ideal) e) := rfl

/-- THE RESULTS AGREE: the kernel's function of the eight arguments is the reference's last stage. -/
theorem result_eq (x : FVec Ideal Cert.KernelIdeal.S100000x128 .f32) (e : IVec Cert.KernelIdeal.S2x1600000 32) (wl1 : FVec Ideal Cert.KernelIdeal.S128x128 .f32)
    (b1 : FVec Ideal Cert.KernelIdeal.S128 .f32) (wr1 wl2 : FVec Ideal Cert.KernelIdeal.S128x128 .f32) (b2 : FVec Ideal Cert.KernelIdeal.S128 .f32)
    (wr2 : FVec Ideal Cert.KernelIdeal.S128x128 .f32) :
    result x e wl1 b1 wr1 wl2 b2 wr2 = Cert.ReferenceIdeal.Read.val_main_v54 (F := Ideal) x e wl1 b1 wr1 wl2 b2 wr2 := by
  funext i
  rw [Cert.ReferenceIdeal.Read.val_main_v54_apply, Cert.ReferenceIdeal.Read.val_main_v52_apply, Cert.ReferenceIdeal.Read.val_main_v49_apply, Cert.ReferenceIdeal.Read.val_main_v51_apply,
    Cert.ReferenceIdeal.Read.val_main_v50_apply, Cert.ReferenceIdeal.Read.val_main_v53_apply, second_mean]
  unfold result layerPlain
  rw [dense_ref, mean_law, hidden_eq]
  rfl

end Cert.Bridge

end
-- ==== Proof.lean ====
/-
  A two-layer SAGE network on a graph of 100000 nodes and 1600000 edges: the kernel against its reference.

  Each layer averages, for every node, the feature rows of the sources of its incoming edges, and adds a dense map
  of that average and of the node's own row (the first layer followed by a maximum with zero).  Both programs do
  the edge-wise part — the gather of source rows, the scatter-add into target rows, the count of incoming edges — with
  the same host operations; the kernel does the dense part in two calls over twenty blocks of 5000 nodes, the
  reference with whole matrix products.  Over the extended reals:

  * the kernel's result array is one function of the eight arguments (`HostSide.result`): each call's write-backs
    tile its output with the layer function of the arrays it found, and the host operations around the calls are
    read through the fold of buffer contents (`Fold.result_at`, over the run `Whole.run_result`);
  * that function is the reference's composed term (`Bridge.result_eq`): the dense parts are the same sums, and the
    kernel's `sum · (1 / max(deg, 1))` is the reference's `sum / max(deg, 1)` because the divisor is at least one.

  The inputs' finiteness is not used.  The frames of the two printed kernel programs are the generated ones; the
  reference's is its generated run with the result dropped; the idealization rewrote nothing.
-/
import proofs.«174795_j40029095199405_1_alg».proof.Defs
import proofs.«174795_j40029095199405_1_alg».proof.Proof.Gen.Kernel
import proofs.«174795_j40029095199405_1_alg».proof.Proof.Gen.Kernel.Skeleton
import proofs.«174795_j40029095199405_1_alg».proof.Proof.Gen.Kernel.Launch
import proofs.«174795_j40029095199405_1_alg».proof.Proof.Gen.Kernel.Points
import proofs.«174795_j40029095199405_1_alg».proof.Proof.Gen.Kernel.Frame
import proofs.«174795_j40029095199405_1_alg».proof.Proof.Gen.KernelIdeal
import proofs.«174795_j40029095199405_1_alg».proof.Proof.Gen.KernelIdeal.Skeleton
import proofs.«174795_j40029095199405_1_alg».proof.Proof.Gen.KernelIdeal.Launch
import proofs.«174795_j40029095199405_1_alg».proof.Proof.Gen.KernelIdeal.Points
import proofs.«174795_j40029095199405_1_alg».proof.Proof.Gen.KernelIdeal.Frame
import proofs.«174795_j40029095199405_1_alg».proof.Proof.Gen.ReferenceIdeal
import proofs.«174795_j40029095199405_1_alg».proof.Proof.Gen.ReferenceIdeal.Run
import proofs.«174795_j40029095199405_1_alg».proof.Proof.Gen.ReferenceIdeal.Read
import proofs.«174795_j40029095199405_1_alg».proof.Proof.Gen.Pre_finite_inputs
import proofs.«174795_j40029095199405_1_alg».proof.Proof.KernelRun
import proofs.«174795_j40029095199405_1_alg».proof.Proof.KernelFold
import proofs.«174795_j40029095199405_1_alg».proof.Proof.DenseLaw
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the kernel's function of the
    arguments in their result arrays. -/
theorem algebraic : Cert.algebraic_KernelIdeal_ReferenceIdeal := by
  intro m ρ m' ρ' _ hagree
  refine ⟨fun c => Cert.KernelIdeal.HostSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_at m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v54_eq, a0, a1, a2, a3, a4, a5, a6, a7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
